-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S800000x128 : Shape := ⟨2, ![800000, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 75
  | .vmem => 17
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x64, .f32⟩
  | .hbm, ⟨66, _⟩ => ⟨S50000x1, .f32⟩
  | .hbm, ⟨67, _⟩ => ⟨S50000x64, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S50000x1, .f32⟩
  | .hbm, ⟨83, _⟩ => ⟨S50000x64, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run, with its result named. The program is five stretches in order: host operations,
  the first projection's grid of row blocks, host operations (the first sum along the edges), the second
  projection's grid, host operations (the second sum along the edges and the final per-node scale and bias). The
  buffer contents at each boundary are a fold through these stretches from the launch memory; every weakly fair
  execution terminates with each unscoped buffer at the last boundary's contents. Read at the result buffer this names
  the result; read at the argument buffers it says they are kept.
-/
import proofs.«147581_j16535624089969_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, and the seven argument arrays end as launched. -/
theorem run_result : θ_run defs (onTc (τ := τ) (main (F := F))) ⟨m, fun _ => 0, ρ⟩ (fun r => ∀ c : Dev nD,
      r.2.mem ((c.tc : Thread nD τ).loc main_v52) = W5 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v52 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.Spec.lean ====
/-
  The pieces of a two-layer graph convolution with symmetric degree normalisation, as functions on arrays of
  extended reals, index by index. A layer projects the node features (rows against the columns of a weight matrix),
  scales each node's row by its entry of a column of per-node factors, sums the rows along the edges (a gather and a
  scatter-add on the host: opaque here), scales again per node and adds a bias row; between the layers the values
  are clamped below at zero. Nothing here depends on how the rows are tiled into blocks.
-/
import Idealize.ShloMosaic.PureOps.Ideal
import Idealize.ShloMosaic.Lib.ValueIdx

noncomputable section

namespace Cert.GraphConv

open Idealize.ShloMosaic Idealize.ShloMosaic.ValueIdx

/-- An `a × b` array of extended reals. -/
abbrev Arr (a b : ℕ) : Type := (⟨2, ![a, b]⟩ : Shape).Idx → EReal

/-- A vector of length `a` as a column `[a, 1]`: entry `(i, ·)` is entry `i`. -/
def col {a : ℕ} (v : (⟨1, ![a]⟩ : Shape).Idx → EReal) : Arr a 1 := fun i => v (ix1 (i 0))

/-- A vector of length `b` as a row `[1, b]`: entry `(·, j)` is entry `j`. -/
def row {b : ℕ} (v : (⟨1, ![b]⟩ : Shape).Idx → EReal) : Arr 1 b := fun i => v (ix1 (i 1))

/-- The product of `x` (rows) with `w` (columns), row `i` then scaled by the column's entry `s i`:
    entry `(i, j)` is `(∑ q, x i q · w q j) · s i`. -/
def scaledProduct {n k d : ℕ} (x : Arr n k) (w : Arr k d) (s : Arr n 1) : Arr n d :=
  fun i => (∑ q : Fin k, x (ix2 (i 0) q) * w (ix2 q (i 1))) * s (ix2 (i 0) (0 : Fin 1))

/-- Row `i` scaled by the column's entry `s i`, the bias row added: entry `(i, j)` is `a i j · s i + b j`. -/
def scaledBias {n d : ℕ} (a : Arr n d) (s : Arr n 1) (b : Arr 1 d) : Arr n d :=
  fun i => a i * s (ix2 (i 0) (0 : Fin 1)) + b (ix2 (0 : Fin 1) (i 1))

/-- The same, clamped below at the value `z` (the layers' activation, with `z` the float zero). -/
def scaledBiasClamp {n d : ℕ} (a : Arr n d) (s : Arr n 1) (b : Arr 1 d) (z : EReal) : Arr n d :=
  fun i => max (scaledBias a s b i) z

end Cert.GraphConv

end
-- ==== Proof.RefStages.lean ====
/-
  The reference, stage by stage, as the pieces of the specification. Its result is a composition of: the first
  projection scaled per node (a product of the features with the first weight matrix, each row times its source-degree
  factor), the sum along the edges, the per-node scale by the destination-degree factor with the first bias and the
  clamp at zero, the second projection scaled per node, the second sum along the edges, and the last per-node scale
  with the second bias. The degree factors and the sums along the edges are left as the host operations they are;
  what is read index by index are the products, the scales and the bias rows.
-/
import proofs.«147581_j16535624089969_2_alg».proof.Proof.Gen.ReferenceIdeal.Read
import proofs.«147581_j16535624089969_2_alg».proof.Proof.Spec

noncomputable section

namespace Cert.ReferenceIdeal.Stages

open Cert.ReferenceIdeal Cert.ReferenceIdeal.Read Cert.GraphConv
open Idealize.ShloMosaic Idealize.ShloMosaic.ValueIdx

/-- The contents types of the seven arguments and of the intermediate arrays, at the ideal values. -/
abbrev X0 := (⟨S50000x256, .f32⟩ : BufTy).Contents (Elt Ideal)
abbrev X1 := (⟨S256x128, .f32⟩ : BufTy).Contents (Elt Ideal)
abbrev X2 := (⟨S128, .f32⟩ : BufTy).Contents (Elt Ideal)
abbrev X3 := (⟨S128x64, .f32⟩ : BufTy).Contents (Elt Ideal)
abbrev X4 := (⟨S64, .f32⟩ : BufTy).Contents (Elt Ideal)
abbrev XI := (⟨S800000, .i32⟩ : BufTy).Contents (Elt Ideal)
abbrev H128 := FVec Ideal S50000x128 .f32
abbrev H64 := FVec Ideal S50000x64 .f32

/-- The source-degree factor of each node: `rsqrt (max (out-degree) 1)`, a vector over the nodes. -/
abbrev srcFactor (x5 : XI) : S50000.Idx → EReal := val_main_v19 (F := Ideal) x5
/-- The destination-degree factor of each node: `rsqrt (max (in-degree) 1)`. -/
abbrev dstFactor (x6 : XI) : S50000.Idx → EReal := val_main_v22 (F := Ideal) x6

/-- The sum along the edges of rows of width 128: row `dst e` of the result collects row `src e` of `h`,
    over all edges `e` (a gather by the normalised source indices, then a scatter-add by the destinations). -/
def edgeSum128 (h : H128) (x5 x6 : XI) : H128 :=
  Host.scatterAdd (F := Ideal) (φ := .f32) scatter_S50000x128_S800000x1_S800000x128_1_0_0_1 (val_main_v34 (F := Ideal)) (val_main_v35 (F := Ideal) x6)
    (Host.gather gather_S50000x128_S800000x1_S800000x128_1_0_n_n_0_1_1128 h (val_main_v32 (F := Ideal) x5))

/-- The same sum along the edges for rows of width 64. -/
def edgeSum64 (h : H64) (x5 x6 : XI) : H64 :=
  Host.scatterAdd (F := Ideal) (φ := .f32) scatter_S50000x64_S800000x1_S800000x64_1_0_0_1 (val_main_v55 (F := Ideal)) (val_main_v56 (F := Ideal) x6)
    (Host.gather gather_S50000x64_S800000x1_S800000x64_1_0_n_n_0_1_164 h (val_main_v53 (F := Ideal) x5))

/-- The scaled product with a vector's column, read at an index: the product's entry times the vector's entry of that row. -/
theorem scaledProduct_apply {n k d : ℕ} (x : Arr n k) (w : Arr k d) (v : (⟨1, ![n]⟩ : Shape).Idx → EReal)
    (i : (⟨2, ![n, d]⟩ : Shape).Idx) :
    (∑ q : Fin k, x (ix2 (i 0) q) * w (ix2 q (i 1))) * v (ix1 (i 0)) = scaledProduct x w (col v) i := rfl

/-- The scale by a vector's column and the bias by a vector's row, read at an index. -/
theorem scaledBias_apply {n d : ℕ} (a : Arr n d) (v : (⟨1, ![n]⟩ : Shape).Idx → EReal) (b : (⟨1, ![d]⟩ : Shape).Idx → EReal)
    (i : (⟨2, ![n, d]⟩ : Shape).Idx) :
    a i * v (ix1 (i 0)) + b (ix1 (i 1)) = scaledBias a (col v) (row b) i := rfl

/-- The same under the clamp. -/
theorem scaledBiasClamp_apply {n d : ℕ} (a : Arr n d) (v : (⟨1, ![n]⟩ : Shape).Idx → EReal) (b : (⟨1, ![d]⟩ : Shape).Idx → EReal)
    (z : EReal) (i : (⟨2, ![n, d]⟩ : Shape).Idx) :
    max (a i * v (ix1 (i 0)) + b (ix1 (i 1))) z = scaledBiasClamp a (col v) (row b) z i := rfl

/-- The first projection: features times the first weights, row `i` times the source factor of node `i`. -/
theorem projection1 (x0 : X0) (x1 : X1) (x5 : XI) :
    val_main_v26 (F := Ideal) x0 x1 x5 = scaledProduct x0 x1 (col (srcFactor x5)) := by
  funext i
  rw [val_main_v26_apply, val_main_v23_apply, val_main_v25_apply, val_main_v24_apply]
  have e1 : ∀ k, lidx_main_v23 i k = ix2 (i 0) k := fun k => funext fun a => by
    match a with | ⟨0, _⟩ => rfl | ⟨1, _⟩ => rfl
  have e2 : ∀ k, ridx_main_v23 i k = ix2 k (i 1) := fun k => funext fun a => by
    match a with | ⟨0, _⟩ => rfl | ⟨1, _⟩ => rfl
  have e3 : idx_main_v24 (idx_main_v25 i) = ix1 (i 0) := funext fun a => by
    match a with | ⟨0, _⟩ => rfl
  rw [e3]
  simp only [e1, e2]
  exact scaledProduct_apply x0 x1 (srcFactor x5) i

/-- The first sum along the edges is applied to the first projection. -/
theorem aggregate1 (x0 : X0) (x1 : X1) (x5 x6 : XI) :
    val_main_v36 (F := Ideal) x0 x1 x5 x6 = edgeSum128 (val_main_v26 (F := Ideal) x0 x1 x5) x5 x6 := rfl

/-- Between the layers: row `i` times the destination factor of node `i`, plus the first bias, clamped at zero. -/
theorem activation (x0 : X0) (x1 : X1) (x2 : X2) (x5 x6 : XI) :
    val_main_v43 (F := Ideal) x0 x1 x2 x5 x6
      = scaledBiasClamp (val_main_v36 (F := Ideal) x0 x1 x5 x6) (col (dstFactor x6)) (row x2) (Ideal.ofBits .f32 0x00000000#32) := by
  funext i
  rw [val_main_v43_apply, val_main_v42_apply, val_main_v39_apply, val_main_v38_apply, val_main_v37_apply,
    val_main_v41_apply, val_main_v40_apply, val_main_call0_v0_apply, val_main_call0_cst_apply]
  have e1 : idx_main_v37 (idx_main_v38 i) = ix1 (i 0) := funext fun a => by
    match a with | ⟨0, _⟩ => rfl
  have e2 : idx_main_v40 (idx_main_v41 i) = ix1 (i 1) := funext fun a => by
    match a with | ⟨0, _⟩ => rfl
  rw [e1, e2]
  exact scaledBiasClamp_apply _ (dstFactor x6) x2 _ i

/-- The second projection: the activated rows times the second weights, row `i` times the source factor. -/
theorem projection2 (x0 : X0) (x1 : X1) (x2 : X2) (x3 : X3) (x5 x6 : XI) :
    val_main_v47 (F := Ideal) x0 x1 x2 x3 x5 x6
      = scaledProduct (val_main_v43 (F := Ideal) x0 x1 x2 x5 x6) x3 (col (srcFactor x5)) := by
  funext i
  rw [val_main_v47_apply, val_main_v44_apply, val_main_v46_apply, val_main_v45_apply]
  have e1 : ∀ k, lidx_main_v44 i k = ix2 (i 0) k := fun k => funext fun a => by
    match a with | ⟨0, _⟩ => rfl | ⟨1, _⟩ => rfl
  have e2 : ∀ k, ridx_main_v44 i k = ix2 k (i 1) := fun k => funext fun a => by
    match a with | ⟨0, _⟩ => rfl | ⟨1, _⟩ => rfl
  have e3 : idx_main_v45 (idx_main_v46 i) = ix1 (i 0) := funext fun a => by
    match a with | ⟨0, _⟩ => rfl
  rw [e3]
  simp only [e1, e2]
  exact scaledProduct_apply _ x3 (srcFactor x5) i

/-- The second sum along the edges is applied to the second projection. -/
theorem aggregate2 (x0 : X0) (x1 : X1) (x2 : X2) (x3 : X3) (x5 x6 : XI) :
    val_main_v57 (F := Ideal) x0 x1 x2 x3 x5 x6 = edgeSum64 (val_main_v47 (F := Ideal) x0 x1 x2 x3 x5 x6) x5 x6 := rfl

/-- The last step: row `i` times the destination factor of node `i`, plus the second bias. -/
theorem output (x0 : X0) (x1 : X1) (x2 : X2) (x3 : X3) (x4 : X4) (x5 x6 : XI) :
    val_main_v63 (F := Ideal) x0 x1 x2 x3 x4 x5 x6
      = scaledBias (val_main_v57 (F := Ideal) x0 x1 x2 x3 x5 x6) (col (dstFactor x6)) (row x4) := by
  funext i
  rw [val_main_v63_apply, val_main_v60_apply, val_main_v59_apply, val_main_v58_apply, val_main_v62_apply, val_main_v61_apply]
  have e1 : idx_main_v58 (idx_main_v59 i) = ix1 (i 0) := funext fun a => by
    match a with | ⟨0, _⟩ => rfl
  have e2 : idx_main_v61 (idx_main_v62 i) = ix1 (i 1) := funext fun a => by
    match a with | ⟨0, _⟩ => rfl
  rw [e1, e2]
  exact scaledBias_apply _ (dstFactor x6) x4 i

/-- The whole result as the composition of the specification's pieces with the two sums along the edges. -/
def result (x0 : X0) (x1 : X1) (x2 : X2) (x3 : X3) (x4 : X4) (x5 x6 : XI) : H64 :=
  scaledBias
    (edgeSum64
      (scaledProduct
        (scaledBiasClamp (edgeSum128 (scaledProduct x0 x1 (col (srcFactor x5))) x5 x6) (col (dstFactor x6)) (row x2)
          (Ideal.ofBits .f32 0x00000000#32))
        x3 (col (srcFactor x5)))
      x5 x6)
    (col (dstFactor x6)) (row x4)

/-- The reference computes `result`. -/
theorem reference_eq (x0 : X0) (x1 : X1) (x2 : X2) (x3 : X3) (x4 : X4) (x5 x6 : XI) :
    val_main_v63 (F := Ideal) x0 x1 x2 x3 x4 x5 x6 = result x0 x1 x2 x3 x4 x5 x6 := by
  rw [output, aggregate2, projection2, activation, aggregate1, projection1]
  rfl

end Cert.ReferenceIdeal.Stages

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibBroadcastLayout.lean ====
/-
  Two host broadcasts read at an index given by coordinates: a column `[n, 1]` and a row `[1, d]`, each placed along
  both axes of `[n, d]`. The column's copy reads the column's entry of the same row; the row's copy reads the row's
  entry of the same position in the row.
-/
import Idealize.ShloMosaic.Lib.Pipeline.Value
import Idealize.ShloMosaic.Lib.ValueIdx

namespace Cert.BroadcastLayout

open Idealize.ShloMosaic Idealize.ShloMosaic.ValueIdx

variable {α : Type}

/-- A column `[n, 1]` placed along both axes of `[n, d]` reads, at `(p, q)`, the column's entry of row `p`. -/
theorem broadcastInDim_col_apply {n d : ℕ} (v : (⟨2, ![n, 1]⟩ : Shape).Idx → α)
    (h : (⟨2, ![n, 1]⟩ : Shape).BroadcastsInDim ⟨2, ![n, d]⟩ ![0, 1]) (p : Fin n) (q : Fin d) :
    broadcastInDim ⟨2, ![n, d]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

/-- A row `[1, d]` placed along both axes of `[n, d]` reads, at `(p, q)`, the row's entry at `q`. -/
theorem broadcastInDim_row_apply {n d : ℕ} (v : (⟨2, ![1, d]⟩ : Shape).Idx → α)
    (h : (⟨2, ![1, d]⟩ : Shape).BroadcastsInDim ⟨2, ![n, d]⟩ ![0, 1]) (p : Fin n) (q : Fin d) :
    broadcastInDim ⟨2, ![n, d]⟩ ![0, 1] h v (ix2 p q) = v (ix2 (0 : Fin 1) q) := by
  refine broadcastInDim_apply _ h v (ix2 p q) (ix2 (0 : Fin 1) q) fun a => ?_
  match a with
  | ⟨0, _⟩ => rfl
  | ⟨1, _⟩ =>
    show q.val = if d = 1 then 0 else q.val
    split
    · have := q.isLt; omega
    · rfl

end Cert.BroadcastLayout
-- ==== Proof.KernelStretches.lean ====
/-
  The host stretches of the idealized kernel program, read off an arbitrary valuation `W` of the buffers they start
  from. The first stretch computes the two per-node degree factors (as columns) and the first bias as a row; the second
  is the first sum along the edges; the third is the second sum along the edges followed by the per-node scale and the
  second bias. The degree factors and the sums along the edges are the same host operations as the reference's, so they
  are identified with the reference's stages as they stand; what is read index by index are the casts of a vector to a
  column or a row and the broadcasts of a column and a row over a whole array.
-/
import proofs.«147581_j16535624089969_2_alg».proof.Proof.Gen.KernelIdeal.Frame
import proofs.«147581_j16535624089969_2_alg».proof.Proof.RefStages
import proofs.«147581_j16535624089969_2_alg».proof.Proof.LibColumnLayout
import proofs.«147581_j16535624089969_2_alg».proof.Proof.LibBroadcastLayout
import Idealize.ShloMosaic.Lib.StableHlo.Run
import Idealize.ShloMosaic.Lib.ValueLayout

set_option maxRecDepth 16384

noncomputable section

namespace Cert.KernelIdeal.Stretches

open Idealize.ShloMosaic Idealize.ShloMosaic.TcCoe Idealize.SL.Sem Idealize.ShloMosaic.StableHlo
open Idealize.ShloMosaic.ValueIdx
open Cert.KernelIdeal Cert.KernelIdeal.Gen Cert.GraphConv
open Cert.ReferenceIdeal.Stages (X0 X1 X2 X3 X4 XI H128 H64 srcFactor dstFactor edgeSum128 edgeSum64)

variable (W : Valuation τ sig (Elt Ideal))

/-! ## The first stretch -/

/-- The source-degree factors, cast from a vector to a column. -/
theorem first_srcColumn (a5 : XI) (h5 : W (Proc.devRef .tc main_arg5) = a5) :
    StableHlo.after hostOps0 W (Proc.devRef .tc main_v20) = col (srcFactor a5) := by
  after_results_simp
  rw [h5]
  refine funext fun (j : (⟨2, ![50000, 1]⟩ : Shape).Idx) => ?_
  obtain ⟨p, u, rfl⟩ : ∃ (p : Fin 50000) (u : Fin 1), j = ix2 p u := ⟨j 0, j 1, eq_ix2 j⟩
  refine (Cert.ColumnLayout.shapeCast_a_a1_apply _ _ p u).trans ?_
  show srcFactor a5 (ix1 p) = _
  rfl

/-- The destination-degree factors, cast from a vector to a column. -/
theorem first_dstColumn (a6 : XI) (h6 : W (Proc.devRef .tc main_arg6) = a6) :
    StableHlo.after hostOps0 W (Proc.devRef .tc main_v24) = col (dstFactor a6) := by
  after_results_simp
  rw [h6]
  refine funext fun (j : (⟨2, ![50000, 1]⟩ : Shape).Idx) => ?_
  obtain ⟨p, u, rfl⟩ : ∃ (p : Fin 50000) (u : Fin 1), j = ix2 p u := ⟨j 0, j 1, eq_ix2 j⟩
  refine (Cert.ColumnLayout.shapeCast_a_a1_apply _ _ p u).trans ?_
  show dstFactor a6 (ix1 p) = _
  rfl

/-- The first bias, cast from a vector to a row. -/
theorem first_biasRow (a2 : X2) (h2 : W (Proc.devRef .tc main_arg2) = a2) :
    StableHlo.after hostOps0 W (Proc.devRef .tc main_v25) = row a2 := by
  after_results_simp
  rw [h2]
  refine funext fun (j : (⟨2, ![1, 128]⟩ : Shape).Idx) => ?_
  obtain ⟨u, q, rfl⟩ : ∃ (u : Fin 1) (q : Fin 128), j = ix2 u q := ⟨j 0, j 1, eq_ix2 j⟩
  exact shapeCast_a_1a_apply _ _ u q

/-- The first stretch writes none of these buffers: each holds after it what it held before. -/
theorem first_keeps_main_arg0 : StableHlo.after hostOps0 W (Proc.devRef .tc main_arg0) = W (Proc.devRef .tc main_arg0) := by
  after_results_simp
theorem first_keeps_main_arg1 : StableHlo.after hostOps0 W (Proc.devRef .tc main_arg1) = W (Proc.devRef .tc main_arg1) := by
  after_results_simp
theorem first_keeps_main_arg3 : StableHlo.after hostOps0 W (Proc.devRef .tc main_arg3) = W (Proc.devRef .tc main_arg3) := by
  after_results_simp
theorem first_keeps_main_arg4 : StableHlo.after hostOps0 W (Proc.devRef .tc main_arg4) = W (Proc.devRef .tc main_arg4) := by
  after_results_simp
theorem first_keeps_main_arg5 : StableHlo.after hostOps0 W (Proc.devRef .tc main_arg5) = W (Proc.devRef .tc main_arg5) := by
  after_results_simp
theorem first_keeps_main_arg6 : StableHlo.after hostOps0 W (Proc.devRef .tc main_arg6) = W (Proc.devRef .tc main_arg6) := by
  after_results_simp

/-! ## The second stretch -/

/-- The first sum along the edges, of the array the first projection left. -/
theorem second_edgeSum (H : H128) (a5 a6 : XI) (h26 : W (Proc.devRef .tc main_v26) = H)
    (h5 : W (Proc.devRef .tc main_arg5) = a5) (h6 : W (Proc.devRef .tc main_arg6) = a6) :
    StableHlo.after hostOps1 W (Proc.devRef .tc main_v36) = edgeSum128 H a5 a6 := by
  after_results_simp
  rw [h26, h5, h6]
  rfl

/-- The second stretch writes none of these buffers. -/
theorem second_keeps_main_v20 : StableHlo.after hostOps1 W (Proc.devRef .tc main_v20) = W (Proc.devRef .tc main_v20) := by
  after_results_simp
theorem second_keeps_main_v24 : StableHlo.after hostOps1 W (Proc.devRef .tc main_v24) = W (Proc.devRef .tc main_v24) := by
  after_results_simp
theorem second_keeps_main_v25 : StableHlo.after hostOps1 W (Proc.devRef .tc main_v25) = W (Proc.devRef .tc main_v25) := by
  after_results_simp
theorem second_keeps_main_arg3 : StableHlo.after hostOps1 W (Proc.devRef .tc main_arg3) = W (Proc.devRef .tc main_arg3) := by
  after_results_simp
theorem second_keeps_main_arg4 : StableHlo.after hostOps1 W (Proc.devRef .tc main_arg4) = W (Proc.devRef .tc main_arg4) := by
  after_results_simp
theorem second_keeps_main_arg5 : StableHlo.after hostOps1 W (Proc.devRef .tc main_arg5) = W (Proc.devRef .tc main_arg5) := by
  after_results_simp
theorem second_keeps_main_arg6 : StableHlo.after hostOps1 W (Proc.devRef .tc main_arg6) = W (Proc.devRef .tc main_arg6) := by
  after_results_simp

/-! ## The third stretch -/

/-- A column `D` of per-row factors and a bias vector `a4`, each broadcast over a `50000 × 64` array `E` as the host
    does it (the column along both axes; the vector first cast to a row), read index by index: entry `(p, q)` of the
    product-and-sum is `E p q · D p + a4 q`. -/
theorem affine_eq (E : H64) (D : Arr 50000 1) (a4 : X4) :
    addf (mulf E (broadcastInDim S50000x64 ![0, 1] bcast_S50000x1_S50000x64_0_1 D))
      (broadcastInDim S50000x64 ![0, 1] bcast_S1x64_S50000x64_0_1 (shapeCast S1x64 a4 shapeCasts_S64_S1x64))
    = scaledBias E D (row a4) := by
  refine funext fun (j : (⟨2, ![50000, 64]⟩ : Shape).Idx) => ?_
  obtain ⟨p, q, rfl⟩ : ∃ (p : Fin 50000) (q : Fin 64), j = ix2 p q := ⟨j 0, j 1, eq_ix2 j⟩
  show (E (ix2 p q) : EReal) * (broadcastInDim S50000x64 ![0, 1] bcast_S50000x1_S50000x64_0_1 D (ix2 p q))
      + broadcastInDim S50000x64 ![0, 1] bcast_S1x64_S50000x64_0_1 (shapeCast S1x64 a4 shapeCasts_S64_S1x64) (ix2 p q)
      = E (ix2 p q) * D (ix2 p (0 : Fin 1)) + a4 (ix1 q)
  rw [Cert.BroadcastLayout.broadcastInDim_col_apply, Cert.BroadcastLayout.broadcastInDim_row_apply, shapeCast_a_1a_apply]

/-- The second sum along the edges, of the array the second projection left, then each row scaled by the column `D`
    and the second bias added as a row. The sum along the edges is compared as a whole function, never at an index. -/
theorem third_result (H : H64) (D : Arr 50000 1) (a4 : X4) (a5 a6 : XI) (h37 : W (Proc.devRef .tc main_v37) = H)
    (h24 : W (Proc.devRef .tc main_v24) = D) (h4 : W (Proc.devRef .tc main_arg4) = a4)
    (h5 : W (Proc.devRef .tc main_arg5) = a5) (h6 : W (Proc.devRef .tc main_arg6) = a6) :
    StableHlo.after hostOps2 W (Proc.devRef .tc main_v52) = scaledBias (edgeSum64 H a5 a6) D (row a4) := by
  refine Eq.trans (b := addf (mulf (edgeSum64 H a5 a6) (broadcastInDim S50000x64 ![0, 1] bcast_S50000x1_S50000x64_0_1 D))
      (broadcastInDim S50000x64 ![0, 1] bcast_S1x64_S50000x64_0_1 (shapeCast S1x64 a4 shapeCasts_S64_S1x64))) ?_ ?_
  · after_results_simp
    rw [h37, h24, h4, h5, h6]
    rfl
  · exact affine_eq (edgeSum64 H a5 a6) D a4

end Cert.KernelIdeal.Stretches

end
-- ==== Proof.Region0Array.lean ====
/-
  The first layer's region, read as one array equation. Each of the 25 grid points takes a block of 2000 rows of
  the node features, the whole weight matrix and the same 2000 rows of the column of per-node factors, and writes
  back the 2000 rows of the result: every row of the block against every column of the weights, the row then scaled
  by its factor. Index by index this is the scaled product of the three arrays the region was entered with, read at
  the rows of the block; the 25 blocks cover the 50000 rows, so the result array ends holding the scaled product.
-/
import proofs.«147581_j16535624089969_2_alg».proof.Proof.Gen.KernelIdeal.Frame
import proofs.«147581_j16535624089969_2_alg».proof.Proof.Spec
import proofs.«147581_j16535624089969_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Cert.KernelIdeal Cert.KernelIdeal.Gen Cert.GraphConv
open Idealize.ShloMosaic.ValueIdx Idealize.ShloMosaic.TcCoe
open Idealize.ShloMosaic.Pipeline (Dat)

/-- The projection's contraction, axis by axis: the left operand is read at the output's row and the contraction
    position, the right at the contraction position and the output's column. -/
theorem lhs_row (i : S2000x128.Idx) (k : dot_S2000x256_S256x128_S2000x128_1_0_0_1_n_n.contr.Idx) :
    (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_contr (i : S2000x128.Idx) (k : dot_S2000x256_S256x128_S2000x128_1_0_0_1_n_n.contr.Idx) :
    (dot_S2000x256_S256x128_S2000x128_1_0_0_1_n_n.lhsIdx i k 1).val = (k ⟨0, by decide⟩).val :=
  dot_S2000x256_S256x128_S2000x128_1_0_0_1_n_n.lhsIdx_val_of_single rfl i k
theorem rhs_contr (i : S2000x128.Idx) (k : dot_S2000x256_S256x128_S2000x128_1_0_0_1_n_n.contr.Idx) :
    (dot_S2000x256_S256x128_S2000x128_1_0_0_1_n_n.rhsIdx i k 0).val = (k ⟨0, by decide⟩).val :=
  dot_S2000x256_S256x128_S2000x128_1_0_0_1_n_n.rhsIdx_val_of_single rfl i k
theorem rhs_col (i : S2000x128.Idx) (k : dot_S2000x256_S256x128_S2000x128_1_0_0_1_n_n.contr.Idx) :
    (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block product into a zero accumulator, at row `p` and column `q`: the sum over the 256 contraction positions. -/
theorem matmul_entry (x0 : FVec Ideal S2000x256 .bf16) (x1 : FVec Ideal S256x128 .bf16) (p : Fin 2000) (q : Fin 128) :
    matmul dot_S2000x256_S256x128_S2000x128_1_0_0_1_n_n none x0 x1 (constant (F := Ideal) S2000x128 .f32 0x00000000#32) (ix2 p q)
      = ∑ k : Fin 256, x0 (ix2 p k) * x1 (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_contr _ _).trans hk
    | ⟨1, _⟩ => exact rhs_col _ _)
  rw [el, er]

/-- The body's payload at row `p` and column `q` of its block: the row of the feature block against the column of the
    weights, times the row's entry of the factor column (a format change is the identity on extended reals; the column is
    broadcast along the rows). -/
theorem payload_apply (x0 : Vec Ideal S2000x256 .f32) (x1 : Vec Ideal S256x128 .f32) (x2 : Vec Ideal S2000x1 .f32)
    (p : Fin 2000) (q : Fin 128) :
    k0_pay1 (F := Ideal) x0 x1 x2 (ix2 p q) = (∑ k : Fin 256, x0 (ix2 p k) * x1 (ix2 k q)) * x2 (ix2 p (0 : Fin 1)) := by
  unfold k0_pay1
  rw [mulf_apply, matmul_entry, Cert.ColumnLayout.broadcastTo_a1_ab_apply, shapeCast_self]
  rfl

/-! ## What a point writes back -/

theorem origin : (![0, 0] : Fin 2 → Nat) = fun _ => 0 := funext fun a => by fin_cases a <;> rfl

/-- The printed index maps, decided over the 25 points: point `t` takes row block `t` of the features, of the factor
    column and of the result, column block 0 of each, and the one block of the weights. -/
theorem index_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block's entry is the array's: when the block's feature row `p`, weight column `q` and factor entry are the
    arrays' at row `r`, the payload at `(p, q)` is the scaled product at `(r, q)`. -/
theorem payload_eq_scaledProduct (A0 : Arr 50000 256) (A1 : Arr 256 128) (A2 : Arr 50000 1)
    (x0 : Vec Ideal S2000x256 .f32) (x1 : Vec Ideal S256x128 .f32) (x2 : Vec Ideal S2000x1 .f32)
    (p : Fin 2000) (q : Fin 128) (r : Fin 50000)
    (h0 : ∀ k : Fin 256, x0 (ix2 p k) = A0 (ix2 r k))
    (h1 : ∀ k : Fin 256, x1 (ix2 k q) = A1 (ix2 k q))
    (h2 : x2 (ix2 p (0 : Fin 1)) = A2 (ix2 r (0 : Fin 1))) :
    k0_pay1 (F := Ideal) x0 x1 x2 (ix2 p q) = scaledProduct A0 A1 A2 (ix2 r q) := by
  rw [payload_apply, h2]
  show _ = (∑ k : Fin 256, A0 (ix2 r k) * A1 (ix2 k q)) * A2 (ix2 r (0 : Fin 1))
  exact congrArg (· * A2 (ix2 r (0 : Fin 1))) (Finset.sum_congr rfl fun k _ => by rw [h0, h1])

theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (scaledProduct (V c main_arg0) (V c main_arg1) (V c main_v20)) := by
  show (cfg0.win 3).cut (grid0.coords t) ((dat0 V c).after 3 t) = _
  rw [after0_3]
  unfold out0_3
  rw [View.canon_unit_zero origin]
  simp only [View.ld_unit_zero (S := S2000x256) origin, View.ld_unit_zero (S := S256x128) origin, View.ld_unit_zero (S := S2000x1) origin]
  obtain ⟨e30, e31, e00, e01, e10, e11, e20, e21⟩ := index_facts t
  have ht : t.val < 25 := lt_of_lt_of_eq t.isLt N_0
  funext y
  obtain ⟨p, q, rfl⟩ : ∃ (p : Fin 2000) (q : Fin 128), y = ix2 p q := ⟨y 0, y 1, eq_ix2 y⟩
  have hp := p.isLt
  show k0_pay1 (F := Ideal) (iblk0 V c 0 t) (iblk0 V c 1 t) (iblk0 V c 2 t) (ix2 p q)
    = scaledProduct (V c main_arg0) (V c main_arg1) (V c main_v20) (((cfg0.win 3).blk t).view.emb (ix2 p q))
  have hr : t.val * 2000 + p.val < 50000 := by omega
  refine (payload_eq_scaledProduct (V c main_arg0) (V c main_arg1) (V c main_v20) _ _ _ p q ⟨t.val * 2000 + p.val, hr⟩
    (fun k => ?_) (fun k => ?_) ?_).trans (congrArg _ (funext fun a => Fin.ext ?_))
  · show V c main_arg0 (((cfg0.win 0).blk t).view.emb (ix2 p k)) = V c main_arg0 (ix2 ⟨t.val * 2000 + p.val, hr⟩ k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · show V c main_arg1 (((cfg0.win 1).blk t).view.emb (ix2 k q)) = V c main_arg1 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show V c main_v20 (((cfg0.win 2).blk t).view.emb (ix2 p (0 : Fin 1))) = V c main_v20 (ix2 ⟨t.val * 2000 + p.val, hr⟩ (0 : Fin 1))
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  · match a with
    | ⟨0, _⟩ => show t.val * 2000 + p.val = win0_3.index t (0 : Fin 2) * 2000 + 1 * p.val; omega
    | ⟨1, _⟩ => show q.val = win0_3.index t (1 : Fin 2) * 128 + 1 * q.val; omega

/-! ## The blocks cover the array -/

/-- A row and column of the result are in point `t`'s block when each lies in the block's range on its axis. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v26).slice (win0_3.rect t)).set ↔ _
  rw [View.set_slice_whole, Rect.mem_set_unit]
  exact Iff.rfl

/-- Row `r` of the 50000 is in the block of point `r / 2000`, which writes back. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨e30, e31, -⟩ := index_facts t
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the region: the scaled product of the arrays the region was entered with. -/
theorem array_eq (V : (c : Dev nD) → (b : Ref sig .tc) → Buf (Elt Ideal) ((c : Thread nD τ).loc b)) (c : Dev nD) :
    (dat0 (F := Ideal) V c).arrAt 3 cfg0.N = scaledProduct (V c main_arg0) (V c main_arg1) (V c main_v20) :=
  (dat0 (F := Ideal) V c).arrAt_eq_of_cover 3 (scaledProduct (V c main_arg0) (V c main_arg1) (V c main_v20))
    (fun t _ => flushed_eq V c t) cover

end Cert.KernelIdeal.Region0
end
-- ==== Proof.Region1Array.lean ====
/-
  The second layer's region, read as one array equation. Each of the 25 grid points takes a block of 2000 rows of the
  aggregated features and the same 2000 rows of two columns of per-node factors, the whole bias row and the whole weight
  matrix. It scales each aggregated row by its first factor, adds the bias row and clamps below at zero; it then takes
  every row of that hidden block against every column of the weights, scales the row by its second factor, and writes
  back the 2000 rows of the result. Index by index this is the scaled product of the clamped, scaled and biased
  aggregate with the weights, of the arrays the region was entered with, read at the rows of the block; the 25 blocks
  cover the 50000 rows, so the result array ends holding that scaled product.
-/
import proofs.«147581_j16535624089969_2_alg».proof.Proof.Gen.KernelIdeal.Frame
import proofs.«147581_j16535624089969_2_alg».proof.Proof.Spec
import proofs.«147581_j16535624089969_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Cert.KernelIdeal Cert.KernelIdeal.Gen Cert.GraphConv
open Idealize.ShloMosaic.ValueIdx Idealize.ShloMosaic.TcCoe
open Idealize.ShloMosaic.Pipeline (Dat)

/-- The projection's contraction, axis by axis: the left operand is read at the output's row and the contraction
    position, the right at the contraction position and the output's column. -/
theorem lhs_row (i : S2000x64.Idx) (k : dot_S2000x128_S128x64_S2000x64_1_0_0_1_n_n.contr.Idx) :
    (dot_S2000x128_S128x64_S2000x64_1_0_0_1_n_n.lhsIdx i k 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_contr (i : S2000x64.Idx) (k : dot_S2000x128_S128x64_S2000x64_1_0_0_1_n_n.contr.Idx) :
    (dot_S2000x128_S128x64_S2000x64_1_0_0_1_n_n.lhsIdx i k 1).val = (k ⟨0, by decide⟩).val :=
  dot_S2000x128_S128x64_S2000x64_1_0_0_1_n_n.lhsIdx_val_of_single rfl i k
theorem rhs_contr (i : S2000x64.Idx) (k : dot_S2000x128_S128x64_S2000x64_1_0_0_1_n_n.contr.Idx) :
    (dot_S2000x128_S128x64_S2000x64_1_0_0_1_n_n.rhsIdx i k 0).val = (k ⟨0, by decide⟩).val :=
  dot_S2000x128_S128x64_S2000x64_1_0_0_1_n_n.rhsIdx_val_of_single rfl i k
theorem rhs_col (i : S2000x64.Idx) (k : dot_S2000x128_S128x64_S2000x64_1_0_0_1_n_n.contr.Idx) :
    (dot_S2000x128_S128x64_S2000x64_1_0_0_1_n_n.rhsIdx i k 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, at row `p` and column `q`: the sum over the 128 contraction positions. -/
theorem matmul_entry (x0 : FVec Ideal S2000x128 .bf16) (x1 : FVec Ideal S128x64 .bf16) (p : Fin 2000) (q : Fin 64) :
    matmul dot_S2000x128_S128x64_S2000x64_1_0_0_1_n_n none x0 x1 (constant (F := Ideal) S2000x64 .f32 0x00000000#32) (ix2 p q)
      = ∑ k : Fin 128, x0 (ix2 p k) * x1 (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The hidden block at row `p` and column `k`: the aggregated entry times the row's factor, plus the bias entry of
    the column, clamped below at the float zero (the column of factors is broadcast along the rows, the bias row along
    the columns, the zero everywhere). -/
theorem hidden_apply (x0 : FVec Ideal S2000x128 .f32) (x1 : FVec Ideal S2000x1 .f32) (x2 : FVec Ideal S1x128 .f32)
    (z : EReal) (p : Fin 2000) (k : Fin 128) :
    (maximumf (addf (mulf x0 (broadcastTo S2000x128 x1 broadcasts_S2000x1_S2000x128))
        (broadcastTo S2000x128 x2 broadcasts_S1x128_S2000x128)) (broadcast S2000x128 z) : FVec Ideal S2000x128 .f32) (ix2 p k)
      = max (x0 (ix2 p k) * x1 (ix2 p (0 : Fin 1)) + x2 (ix2 (0 : Fin 1) k)) z := by
  rw [maximumf_apply, addf_apply, mulf_apply, Cert.ColumnLayout.broadcastTo_a1_ab_apply, broadcastTo_1b_ab_apply, broadcast_apply]

/-- The body's payload at row `p` and column `q` of its block: the row of the hidden block against the column of the
    weights, times the row's entry of the factor column (a format change is the identity on extended reals). -/
theorem payload_apply (x0 : Vec Ideal S2000x128 .f32) (x1 : Vec Ideal S2000x1 .f32) (x2 : Vec Ideal S1x128 .f32)
    (x3 : Vec Ideal S128x64 .f32) (x4 : Vec Ideal S2000x1 .f32) (p : Fin 2000) (q : Fin 64) :
    k1_pay1 (F := Ideal) x0 x1 x2 x3 x4 (ix2 p q)
      = (∑ k : Fin 128, max (x0 (ix2 p k) * x1 (ix2 p (0 : Fin 1)) + x2 (ix2 (0 : Fin 1) k)) (Ideal.ofBits .f32 0x00000000#32)
          * x3 (ix2 k q)) * x4 (ix2 p (0 : Fin 1)) := by
  unfold k1_pay1
  simp only [shapeCast_self]
  rw [mulf_apply, matmul_entry, Cert.ColumnLayout.broadcastTo_a1_ab_apply]
  refine congrArg (· * x4 (ix2 p (0 : Fin 1))) (Finset.sum_congr rfl fun k _ => ?_)
  rw [truncf_apply, truncf_apply, hidden_apply]
  rfl

/-! ## What a point writes back -/

theorem origin : (![0, 0] : Fin 2 → Nat) = fun _ => 0 := funext fun a => by fin_cases a <;> rfl

/-- The printed index maps, decided over the 25 points: point `t` takes row block `t` of the aggregated features, of
    the two factor columns and of the result, column block 0 of each, and the one block of the bias row and of the weights. -/
theorem index_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A block's entry is the array's: when the block's aggregated row `p`, its two factor entries, the bias row and the
    weight column `q` are the arrays' at row `r`, the payload at `(p, q)` is, at `(r, q)`, the scaled product of the
    clamped scaled-and-biased array with the weights. -/
theorem payload_eq_scaledProduct (A : Arr 50000 128) (S : Arr 50000 1) (B : Arr 1 128) (W : Arr 128 64) (T : Arr 50000 1)
    (x0 : Vec Ideal S2000x128 .f32) (x1 : Vec Ideal S2000x1 .f32) (x2 : Vec Ideal S1x128 .f32)
    (x3 : Vec Ideal S128x64 .f32) (x4 : Vec Ideal S2000x1 .f32) (p : Fin 2000) (q : Fin 64) (r : Fin 50000)
    (h0 : ∀ k : Fin 128, x0 (ix2 p k) = A (ix2 r k))
    (h1 : x1 (ix2 p (0 : Fin 1)) = S (ix2 r (0 : Fin 1)))
    (h2 : ∀ k : Fin 128, x2 (ix2 (0 : Fin 1) k) = B (ix2 (0 : Fin 1) k))
    (h3 : ∀ k : Fin 128, x3 (ix2 k q) = W (ix2 k q))
    (h4 : x4 (ix2 p (0 : Fin 1)) = T (ix2 r (0 : Fin 1))) :
    k1_pay1 (F := Ideal) x0 x1 x2 x3 x4 (ix2 p q)
      = scaledProduct (scaledBiasClamp A S B (Ideal.ofBits .f32 0x00000000#32)) W T (ix2 r q) := by
  rw [payload_apply, h1, h4]
  show _ = (∑ k : Fin 128, max (A (ix2 r k) * S (ix2 r (0 : Fin 1)) + B (ix2 (0 : Fin 1) k)) (Ideal.ofBits .f32 0x00000000#32)
      * W (ix2 k q)) * T (ix2 r (0 : Fin 1))
  exact congrArg (· * T (ix2 r (0 : Fin 1))) (Finset.sum_congr rfl fun k _ => by rw [h0, h2, h3])

theorem flushed_eq (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (scaledProduct (scaledBiasClamp (V c main_v36) (V c main_v24) (V c main_v25) (Ideal.ofBits .f32 0x00000000#32)) (V c main_arg3) (V c main_v20)) := by
  show (cfg1.win 5).cut (grid1.coords t) ((dat1 V c).after 5 t) = _
  rw [after1_5]
  unfold out1_5
  rw [View.canon_unit_zero origin]
  simp only [View.ld_unit_zero (S := S2000x128) origin, View.ld_unit_zero (S := S2000x1) origin, View.ld_unit_zero (S := S1x128) origin,
    View.ld_unit_zero (S := S128x64) origin]
  obtain ⟨e50, e51, e00, e01, e10, e11, e20, e21, e30, e31, e40, e41⟩ := index_facts t
  have ht : t.val < 25 := lt_of_lt_of_eq t.isLt N_1
  funext y
  obtain ⟨p, q, rfl⟩ : ∃ (p : Fin 2000) (q : Fin 64), y = ix2 p q := ⟨y 0, y 1, eq_ix2 y⟩
  have hp := p.isLt
  show k1_pay1 (F := Ideal) (iblk1 V c 0 t) (iblk1 V c 1 t) (iblk1 V c 2 t) (iblk1 V c 3 t) (iblk1 V c 4 t) (ix2 p q)
    = scaledProduct (scaledBiasClamp (V c main_v36) (V c main_v24) (V c main_v25) (Ideal.ofBits .f32 0x00000000#32)) (V c main_arg3) (V c main_v20)
        (((cfg1.win 5).blk t).view.emb (ix2 p q))
  have hr : t.val * 2000 + p.val < 50000 := by omega
  refine (payload_eq_scaledProduct (V c main_v36) (V c main_v24) (V c main_v25) (V c main_arg3) (V c main_v20) _ _ _ _ _ p q ⟨t.val * 2000 + p.val, hr⟩
    (fun k => ?_) ?_ (fun k => ?_) (fun k => ?_) ?_).trans (congrArg _ (funext fun a => Fin.ext ?_))
  · show V c main_v36 (((cfg1.win 0).blk t).view.emb (ix2 p k)) = V c main_v36 (ix2 ⟨t.val * 2000 + p.val, hr⟩ k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v24 (((cfg1.win 1).blk t).view.emb (ix2 p (0 : Fin 1))) = V c main_v24 (ix2 ⟨t.val * 2000 + p.val, hr⟩ (0 : Fin 1))
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  · show V c main_v25 (((cfg1.win 2).blk t).view.emb (ix2 (0 : Fin 1) k)) = V c main_v25 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_arg3 (((cfg1.win 3).blk t).view.emb (ix2 k q)) = V c main_arg3 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * q.val = q.val; omega
  · show V c main_v20 (((cfg1.win 4).blk t).view.emb (ix2 p (0 : Fin 1))) = V c main_v20 (ix2 ⟨t.val * 2000 + p.val, hr⟩ (0 : Fin 1))
    refine congrArg _ (funext fun a => Fin.ext ?_)
    match a with
    | ⟨0, _⟩ => show win1_4.index t (0 : Fin 2) * 2000 + 1 * p.val = t.val * 2000 + p.val; omega
    | ⟨1, _⟩ => show win1_4.index t (1 : Fin 2) * 1 + 1 * 0 = 0; omega
  · match a with
    | ⟨0, _⟩ => show t.val * 2000 + p.val = win1_5.index t (0 : Fin 2) * 2000 + 1 * p.val; omega
    | ⟨1, _⟩ => show q.val = win1_5.index t (1 : Fin 2) * 64 + 1 * q.val; omega

/-! ## The blocks cover the array -/

/-- A row and column of the result are in point `t`'s block when each lies in the block's range on its axis. -/
theorem mem_block (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v37).slice (win1_5.rect t)).set ↔ _
  rw [View.set_slice_whole, Rect.mem_set_unit]
  exact Iff.rfl

/-- Row `r` of the 50000 is in the block of point `r / 2000`, which writes back. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e50, e51, -⟩ := index_facts t
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The result array after the region: the scaled product of the clamped, scaled and biased aggregate with the weights,
    of the arrays the region was entered with. -/
theorem array_eq (V : (c : Dev nD) → (b : Ref sig .tc) → Buf (Elt Ideal) ((c : Thread nD τ).loc b)) (c : Dev nD) :
    (dat1 (F := Ideal) V c).arrAt 5 cfg1.N
      = scaledProduct (scaledBiasClamp (V c main_v36) (V c main_v24) (V c main_v25) (Ideal.ofBits .f32 0x00000000#32)) (V c main_arg3) (V c main_v20) :=
  (dat1 (F := Ideal) V c).arrAt_eq_of_cover 5
    (scaledProduct (scaledBiasClamp (V c main_v36) (V c main_v24) (V c main_v25) (Ideal.ofBits .f32 0x00000000#32)) (V c main_arg3) (V c main_v20))
    (fun t _ => flushed_eq V c t) cover

end Cert.KernelIdeal.Region1
end
-- ==== Proof.KernelFold.lean ====
/-
  The result of the idealized kernel program as the specification's composition. The buffer contents at the five
  boundaries of the program are followed from the launch memory: after the first host stretch the two degree-factor
  columns and the bias row are in place and the arguments are untouched; the first grid leaves the first scaled
  projection in its output array and its inputs as they were; the second host stretch sums it along the edges; the
  second grid leaves the second scaled projection of the activated sums; the last host stretch sums along the edges
  again, scales per node and adds the second bias. Each buffer a later step reads is walked back to the step that
  wrote it.
-/
import proofs.«147581_j16535624089969_2_alg».proof.Proof.KernelStretches
import proofs.«147581_j16535624089969_2_alg».proof.Proof.Region0Array
import proofs.«147581_j16535624089969_2_alg».proof.Proof.Region1Array

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen Cert.KernelIdeal.Stretches Cert.GraphConv
open Cert.ReferenceIdeal.Stages (X0 X1 X2 X3 X4 XI H128 H64 srcFactor dstFactor edgeSum128 edgeSum64 result)

variable (m : (ℓ : Loc nD τ sig) → Buf (Elt Ideal) ℓ) (ρ : Dev nD → PrngReg) (c : Dev nD)

/-- The seven argument arrays as launched. -/
abbrev a0 : X0 := m ((c.tc : Thread nD τ).loc main_arg0)
abbrev a1 : X1 := m ((c.tc : Thread nD τ).loc main_arg1)
abbrev a2 : X2 := m ((c.tc : Thread nD τ).loc main_arg2)
abbrev a3 : X3 := m ((c.tc : Thread nD τ).loc main_arg3)
abbrev a4 : X4 := m ((c.tc : Thread nD τ).loc main_arg4)
abbrev a5 : XI := m ((c.tc : Thread nD τ).loc main_arg5)
abbrev a6 : XI := m ((c.tc : Thread nD τ).loc main_arg6)

/-! ## After the first host stretch -/

theorem w1_arg0 : W1 m ρ c (Proc.devRef .tc main_arg0) = a0 m c := first_keeps_main_arg0 (W0 m ρ c)
theorem w1_arg1 : W1 m ρ c (Proc.devRef .tc main_arg1) = a1 m c := first_keeps_main_arg1 (W0 m ρ c)
theorem w1_arg3 : W1 m ρ c (Proc.devRef .tc main_arg3) = a3 m c := first_keeps_main_arg3 (W0 m ρ c)
theorem w1_arg4 : W1 m ρ c (Proc.devRef .tc main_arg4) = a4 m c := first_keeps_main_arg4 (W0 m ρ c)
theorem w1_arg5 : W1 m ρ c (Proc.devRef .tc main_arg5) = a5 m c := first_keeps_main_arg5 (W0 m ρ c)
theorem w1_arg6 : W1 m ρ c (Proc.devRef .tc main_arg6) = a6 m c := first_keeps_main_arg6 (W0 m ρ c)
theorem w1_srcColumn : W1 m ρ c (Proc.devRef .tc main_v20) = col (srcFactor (a5 m c)) :=
  first_srcColumn (W0 m ρ c) (a5 m c) rfl
theorem w1_dstColumn : W1 m ρ c (Proc.devRef .tc main_v24) = col (dstFactor (a6 m c)) :=
  first_dstColumn (W0 m ρ c) (a6 m c) rfl
theorem w1_biasRow : W1 m ρ c (Proc.devRef .tc main_v25) = row (a2 m c) :=
  first_biasRow (W0 m ρ c) (a2 m c) rfl

/-! ## After the first grid -/

/-- The first grid's output array: the first projection, each row scaled by its source factor. -/
theorem w2_projection : W2 m ρ c (Proc.devRef .tc main_v26) = scaledProduct (a0 m c) (a1 m c) (col (srcFactor (a5 m c))) := by
  refine (W2_arr m ρ c 3).trans ((Cert.KernelIdeal.Region0.array_eq (V1 m ρ) c).trans ?_)
  show scaledProduct (W1 m ρ c (Proc.devRef .tc main_arg0)) (W1 m ρ c (Proc.devRef .tc main_arg1))
      (W1 m ρ c (Proc.devRef .tc main_v20)) = _
  rw [w1_arg0, w1_arg1, w1_srcColumn]

/-- The source column is an input of the first grid: its array is left as entered. -/
theorem w2_srcColumn : W2 m ρ c (Proc.devRef .tc main_v20) = col (srcFactor (a5 m c)) :=
  (W2_arr m ρ c 2).trans ((((dat0 (V1 m ρ) c).arrAt_in 2 rfl _).trans (A_eq0 (V1 m ρ) c 2)).trans (w1_srcColumn m ρ c))
theorem w2_dstColumn : W2 m ρ c (Proc.devRef .tc main_v24) = col (dstFactor (a6 m c)) :=
  (W2_of_ne m ρ c main_v24 (by decide)).trans (w1_dstColumn m ρ c)
theorem w2_biasRow : W2 m ρ c (Proc.devRef .tc main_v25) = row (a2 m c) :=
  (W2_of_ne m ρ c main_v25 (by decide)).trans (w1_biasRow m ρ c)
theorem w2_arg3 : W2 m ρ c (Proc.devRef .tc main_arg3) = a3 m c := (W2_of_ne m ρ c main_arg3 (by decide)).trans (w1_arg3 m ρ c)
theorem w2_arg4 : W2 m ρ c (Proc.devRef .tc main_arg4) = a4 m c := (W2_of_ne m ρ c main_arg4 (by decide)).trans (w1_arg4 m ρ c)
theorem w2_arg5 : W2 m ρ c (Proc.devRef .tc main_arg5) = a5 m c := (W2_of_ne m ρ c main_arg5 (by decide)).trans (w1_arg5 m ρ c)
theorem w2_arg6 : W2 m ρ c (Proc.devRef .tc main_arg6) = a6 m c := (W2_of_ne m ρ c main_arg6 (by decide)).trans (w1_arg6 m ρ c)

/-! ## After the second host stretch -/

/-- The first sum along the edges. -/
theorem w3_edgeSum : W3 m ρ c (Proc.devRef .tc main_v36)
    = edgeSum128 (scaledProduct (a0 m c) (a1 m c) (col (srcFactor (a5 m c)))) (a5 m c) (a6 m c) :=
  second_edgeSum (W2 m ρ c) _ _ _ (w2_projection m ρ c) (w2_arg5 m ρ c) (w2_arg6 m ρ c)
theorem w3_srcColumn : W3 m ρ c (Proc.devRef .tc main_v20) = col (srcFactor (a5 m c)) :=
  (second_keeps_main_v20 (W2 m ρ c)).trans (w2_srcColumn m ρ c)
theorem w3_dstColumn : W3 m ρ c (Proc.devRef .tc main_v24) = col (dstFactor (a6 m c)) :=
  (second_keeps_main_v24 (W2 m ρ c)).trans (w2_dstColumn m ρ c)
theorem w3_biasRow : W3 m ρ c (Proc.devRef .tc main_v25) = row (a2 m c) :=
  (second_keeps_main_v25 (W2 m ρ c)).trans (w2_biasRow m ρ c)
theorem w3_arg3 : W3 m ρ c (Proc.devRef .tc main_arg3) = a3 m c := (second_keeps_main_arg3 (W2 m ρ c)).trans (w2_arg3 m ρ c)
theorem w3_arg4 : W3 m ρ c (Proc.devRef .tc main_arg4) = a4 m c := (second_keeps_main_arg4 (W2 m ρ c)).trans (w2_arg4 m ρ c)
theorem w3_arg5 : W3 m ρ c (Proc.devRef .tc main_arg5) = a5 m c := (second_keeps_main_arg5 (W2 m ρ c)).trans (w2_arg5 m ρ c)
theorem w3_arg6 : W3 m ρ c (Proc.devRef .tc main_arg6) = a6 m c := (second_keeps_main_arg6 (W2 m ρ c)).trans (w2_arg6 m ρ c)

/-! ## After the second grid -/

/-- The second grid's output array: the second projection of the activated sums, each row scaled by its source factor. -/
theorem w4_projection : W4 m ρ c (Proc.devRef .tc main_v37)
    = scaledProduct
        (scaledBiasClamp (edgeSum128 (scaledProduct (a0 m c) (a1 m c) (col (srcFactor (a5 m c)))) (a5 m c) (a6 m c))
          (col (dstFactor (a6 m c))) (row (a2 m c)) (Ideal.ofBits .f32 0x00000000#32))
        (a3 m c) (col (srcFactor (a5 m c))) := by
  refine (W4_arr m ρ c 5).trans ((Cert.KernelIdeal.Region1.array_eq (V3 m ρ) c).trans ?_)
  show scaledProduct (scaledBiasClamp (W3 m ρ c (Proc.devRef .tc main_v36)) (W3 m ρ c (Proc.devRef .tc main_v24))
      (W3 m ρ c (Proc.devRef .tc main_v25)) (Ideal.ofBits .f32 0x00000000#32)) (W3 m ρ c (Proc.devRef .tc main_arg3))
      (W3 m ρ c (Proc.devRef .tc main_v20)) = _
  rw [w3_edgeSum, w3_dstColumn, w3_biasRow, w3_arg3, w3_srcColumn]

/-- The destination column is an input of the second grid: its array is left as entered. -/
theorem w4_dstColumn : W4 m ρ c (Proc.devRef .tc main_v24) = col (dstFactor (a6 m c)) :=
  (W4_arr m ρ c 1).trans ((((dat1 (V3 m ρ) c).arrAt_in 1 rfl _).trans (A_eq1 (V3 m ρ) c 1)).trans (w3_dstColumn m ρ c))
theorem w4_arg4 : W4 m ρ c (Proc.devRef .tc main_arg4) = a4 m c := (W4_of_ne m ρ c main_arg4 (by decide)).trans (w3_arg4 m ρ c)
theorem w4_arg5 : W4 m ρ c (Proc.devRef .tc main_arg5) = a5 m c := (W4_of_ne m ρ c main_arg5 (by decide)).trans (w3_arg5 m ρ c)
theorem w4_arg6 : W4 m ρ c (Proc.devRef .tc main_arg6) = a6 m c := (W4_of_ne m ρ c main_arg6 (by decide)).trans (w3_arg6 m ρ c)

/-! ## After the last host stretch -/

/-- The program's result is the specification's composition of the arguments as launched. -/
theorem result_eq : W5 m ρ c (Proc.devRef .tc main_v52)
    = result (a0 m c) (a1 m c) (a2 m c) (a3 m c) (a4 m c) (a5 m c) (a6 m c) :=
  third_result (W4 m ρ c) _ _ _ _ _ (w4_projection m ρ c) (w4_dstColumn m ρ c) (w4_arg4 m ρ c) (w4_arg5 m ρ c) (w4_arg6 m ρ c)

end Cert.KernelIdeal.Fold

end
-- ==== Proof.lean ====
/-
  A two-layer graph convolution with symmetric degree normalisation, computed two ways, ends with the same array of
  extended reals. Both programs compute, for node features `x`, weights `W1`, `W2`, biases `b1`, `b2` and an edge list
  `(src, dst)`: the per-node factors `s = rsqrt (max outdeg 1)` and `t = rsqrt (max indeg 1)`; the first projection
  `(x · W1)` with row `i` scaled by `s i`; its sum along the edges (row `dst e` collects row `src e`); the scale of row
  `i` by `t i`, plus `b1`, clamped below at zero; the second projection by `W2`, again scaled by `s`; the second sum
  along the edges; and the scale by `t` plus `b2`. One program does each projection in 25 blocks of 2000 rows, a block's
  rows against the whole weight matrix with a zero accumulator and the column of factors kept as a trailing unit axis;
  the other does it as one matrix product and multiplies by the factors broadcast over the array. At the ideal values a
  change of float format is the identity and both matrix products are the same sum over the contraction index, so each
  block is the restriction of one whole-array function to its rows and the blocks cover the rows; the degree factors and
  the sums along the edges are the same host operations on both sides and are never opened. No law of arithmetic
  beyond this reading is used, so the finiteness of the inputs is not needed.

  The three frames: the two kernel programs by their generated frame runs, the reference by its generated run with the
  result dropped. The idealized kernel is the kernel's own text read at the ideal values (nothing was rewritten).
-/
import proofs.«147581_j16535624089969_2_alg».proof.Defs
import proofs.«147581_j16535624089969_2_alg».proof.Proof.Gen.Kernel
import proofs.«147581_j16535624089969_2_alg».proof.Proof.Gen.Kernel.Skeleton
import proofs.«147581_j16535624089969_2_alg».proof.Proof.Gen.Kernel.Launch
import proofs.«147581_j16535624089969_2_alg».proof.Proof.Gen.Kernel.Points
import proofs.«147581_j16535624089969_2_alg».proof.Proof.Gen.Kernel.Frame
import proofs.«147581_j16535624089969_2_alg».proof.Proof.Gen.KernelIdeal
import proofs.«147581_j16535624089969_2_alg».proof.Proof.Gen.KernelIdeal.Skeleton
import proofs.«147581_j16535624089969_2_alg».proof.Proof.Gen.KernelIdeal.Launch
import proofs.«147581_j16535624089969_2_alg».proof.Proof.Gen.KernelIdeal.Points
import proofs.«147581_j16535624089969_2_alg».proof.Proof.Gen.KernelIdeal.Frame
import proofs.«147581_j16535624089969_2_alg».proof.Proof.Gen.ReferenceIdeal
import proofs.«147581_j16535624089969_2_alg».proof.Proof.Gen.ReferenceIdeal.Run
import proofs.«147581_j16535624089969_2_alg».proof.Proof.Gen.ReferenceIdeal.Read
import proofs.«147581_j16535624089969_2_alg».proof.Proof.Gen.Pre_finite_inputs
import proofs.«147581_j16535624089969_2_alg».proof.Proof.KernelRun
import proofs.«147581_j16535624089969_2_alg».proof.Proof.KernelFold
import proofs.«147581_j16535624089969_2_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the specification's composition of the arguments: the kernel's by following its buffers
    through its five stretches, the reference's stage by stage; the arguments agree, so the two results are equal. -/
theorem algebraic : Cert.algebraic_KernelIdeal_ReferenceIdeal := by
  intro m ρ m' ρ' _ hagree
  refine ⟨fun c => Cert.ReferenceIdeal.Stages.result (Cert.KernelIdeal.Fold.a0 m c) (Cert.KernelIdeal.Fold.a1 m c)
      (Cert.KernelIdeal.Fold.a2 m c) (Cert.KernelIdeal.Fold.a3 m c) (Cert.KernelIdeal.Fold.a4 m c)
      (Cert.KernelIdeal.Fold.a5 m c) (Cert.KernelIdeal.Fold.a6 m c), ?_, ?_⟩
  · exact (θ_run Cert.KernelIdeal.defs _ _).mono
      (fun _ h c => ⟨(h c).1.trans (Cert.KernelIdeal.Fold.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, Cert.ReferenceIdeal.Stages.reference_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
